-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1152x1024 : Shape := ⟨3, ![8, 1152, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1152x1024 : S_.BroadcastsInDim S8x1152x1024 (![] : Fin 0 → Fin S8x1152x1024.rank)
  reducesTo_S8x1152x1024_S_d0_1_2 : S8x1152x1024.ReducesTo [0, 1, 2] S_

variable [Facts]

def fn {F : FTy → Type} [FloatOps F] (main_arg0 : FVec F S8x2048x1024 .f32) (main_arg1 : FVec F S8x1152x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1152x1024 .f32 := Host.absf main_arg1
  let main_cst_0 : FVec F S_ .f32 := constant S_ .f32 0x7F800000#32
  let main_v5 : FVec F S8x1152x1024 .f32 := broadcastInDim S8x1152x1024 ![] bcast_S_S8x1152x1024 main_cst_0
  let main_v6 : IVec S8x1152x1024 1 := cmpf .olt main_v4 main_v5
  let main_c_1 : IVec S_ 1 := constantI S_ 1 1#1
  let main_v7 : IVec S_ 1 := (fun x v => Host.reduce IntOp.andi x v reducesTo_S8x1152x1024_S_d0_1_2 h_S_) main_v6 main_c_1
  let main_v8 : IVec S_ 1 := andi main_v3 main_v7
  main_v8
-- ==== Kernel.lean ====
abbrev S8x2048x1024 : Shape := ⟨3, ![8, 2048, 1024]⟩
abbrev S8x1152x1024 : Shape := ⟨3, ![8, 1152, 1024]⟩
abbrev S8x128x9x1024 : Shape := ⟨4, ![8, 128, 9, 1024]⟩
abbrev S8x9x128x1024 : Shape := ⟨4, ![8, 9, 128, 1024]⟩
abbrev S_ : Shape := ⟨0, ![]⟩
abbrev S8x1152 : Shape := ⟨2, ![8, 1152]⟩
abbrev S8x128x9 : Shape := ⟨3, ![8, 128, 9]⟩
abbrev S8x9x128 : Shape := ⟨3, ![8, 9, 128]⟩
abbrev S8x1x1152 : Shape := ⟨3, ![8, 1, 1152]⟩
abbrev S8x2048 : Shape := ⟨2, ![8, 2048]⟩
abbrev S8x2048x1 : Shape := ⟨3, ![8, 2048, 1]⟩
abbrev S8x2048x128 : Shape := ⟨3, ![8, 2048, 128]⟩
abbrev S1x512x1024 : Shape := ⟨3, ![1, 512, 1024]⟩
abbrev S1x1152x1024 : Shape := ⟨3, ![1, 1152, 1024]⟩
abbrev S1x512x1 : Shape := ⟨3, ![1, 512, 1]⟩
abbrev S1x1x1152 : Shape := ⟨3, ![1, 1, 1152]⟩
abbrev S1x512x128 : Shape := ⟨3, ![1, 512, 128]⟩
abbrev S512x1024 : Shape := ⟨2, ![512, 1024]⟩
abbrev S1152x1024 : Shape := ⟨2, ![1152, 1024]⟩
abbrev S512x1 : Shape := ⟨2, ![512, 1]⟩
abbrev S1x1152 : Shape := ⟨2, ![1, 1152]⟩
abbrev S512x1152 : Shape := ⟨2, ![512, 1152]⟩
abbrev S512x128 : Shape := ⟨2, ![512, 128]⟩

abbrev nBuf : Space → Nat
  | .hbm => 23
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x1152x1024, .f32⟩
  | .hbm, ⟨2, _⟩ => ⟨S8x128x9x1024, .f32⟩
  | .hbm, ⟨3, _⟩ => ⟨S8x9x128x1024, .f32⟩
  | .hbm, ⟨4, _⟩ => ⟨S8x1152x1024, .f32⟩
  | .hbm, ⟨5, _⟩ => ⟨S8x1152x1024, .bf16⟩
  | .hbm, ⟨6, _⟩ => ⟨S8x1152x1024, .f32⟩
  | .hbm, ⟨7, _⟩ => ⟨S_, .f32⟩
  | .hbm, ⟨8, _⟩ => ⟨S8x1152, .f32⟩
  | .hbm, ⟨9, _⟩ => ⟨S8x128x9, .f32⟩
  | .hbm, ⟨10, _⟩ => ⟨S8x9x128, .f32⟩
  | .hbm, ⟨11, _⟩ => ⟨S8x1152, .f32⟩
  | .hbm, ⟨12, _⟩ => ⟨S8x1x1152, .f32⟩
  | .hbm, ⟨13, _⟩ => ⟨S8x2048x1024, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S8x2048x1024, .bf16⟩
  | .hbm, ⟨18, _⟩ => ⟨S8x2048x128, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1152x1024, .bf16⟩
  | .local _ .vmem, ⟨3, _⟩ => ⟨S1x1152x1024, .bf16⟩
  | .local _ .vmem, ⟨4, _⟩ => ⟨S1x512x1, .f32⟩
  | .local _ .vmem, ⟨5, _⟩ => ⟨S1x512x1, .f32⟩
  | .local _ .vmem, ⟨6, _⟩ => ⟨S1x1x1152, .f32⟩
  | .local _ .vmem, ⟨7, _⟩ => ⟨S1x1x1152, .f32⟩
  | .local _ .vmem, ⟨8, _⟩ => ⟨S1x512x128, .f32⟩
  | .local _ .vmem, ⟨9, _⟩ => ⟨S1x512x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S8x1152x1024_S8x128x9x1024 : S8x1152x1024.ShapeCasts S8x128x9x1024
  transposes_S8x128x9x1024_S8x9x128x1024_0_2_1_3 : S8x128x9x1024.Transposes [0, 2, 1, 3] S8x9x128x1024
  shapeCasts_S8x9x128x1024_S8x1152x1024 : S8x9x128x1024.ShapeCasts S8x1152x1024
  bitsLt_bf16_f32 : FTy.bits .bf16 < FTy.bits .f32
  reducesTo_S8x1152x1024_S8x1152_d2 : S8x1152x1024.ReducesTo [2] S8x1152
  h_S_ : 0 < S_.numel
  shapeCasts_S8x1152_S8x128x9 : S8x1152.ShapeCasts S8x128x9
  transposes_S8x128x9_S8x9x128_0_2_1 : S8x128x9.Transposes [0, 2, 1] S8x9x128
  shapeCasts_S8x9x128_S8x1152 : S8x9x128.ShapeCasts S8x1152
  bcast_S8x1152_S8x1x1152_0_2 : S8x1152.BroadcastsInDim S8x1x1152 (![0, 2] : Fin 2 → Fin S8x1x1152.rank)
  reducesTo_S8x2048x1024_S8x2048_d2 : S8x2048x1024.ReducesTo [2] S8x2048
  bcast_S8x2048_S8x2048x1_0_1 : S8x2048.BroadcastsInDim S8x2048x1 (![0, 1] : Fin 2 → Fin S8x2048x1.rank)
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1152x1024_S1x1152x1024_0_0_0 : ∀ a, (![0, 0, 0] : Fin 3 → Nat) a + S1x1152x1024.size a ≤ S1x1152x1024.size a
  h_S1x1152x1024 : 0 < S1x1152x1024.numel
  shapeCasts_S1x1152x1024_S1152x1024 : S1x1152x1024.ShapeCasts S1152x1024
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  inb_S1x1x1152_S1x1x1152_0_0_0 : ∀ a, (![0, 0, 0] : Fin 3 → Nat) a + S1x1x1152.size a ≤ S1x1x1152.size a
  h_S1x1x1152 : 0 < S1x1x1152.numel
  shapeCasts_S1x1x1152_S1x1152 : S1x1x1152.ShapeCasts S1x1152
  broadcasts_S512x1_S512x1152 : S512x1.Broadcasts S512x1152
  broadcasts_S1x1152_S512x1152 : S1x1152.Broadcasts S512x1152
  slices_S512x1152_o0_0_S512x128 : S512x1152.Slices ![0, 0] S512x128
  slices_S512x1152_o0_128_S512x128 : S512x1152.Slices ![0, 128] S512x128
  slices_S512x1152_o0_256_S512x128 : S512x1152.Slices ![0, 256] S512x128
  slices_S512x1152_o0_384_S512x128 : S512x1152.Slices ![0, 384] S512x128
  slices_S512x1152_o0_512_S512x128 : S512x1152.Slices ![0, 512] S512x128
  slices_S512x1152_o0_640_S512x128 : S512x1152.Slices ![0, 640] S512x128
  slices_S512x1152_o0_768_S512x128 : S512x1152.Slices ![0, 768] S512x128
  slices_S512x1152_o0_896_S512x128 : S512x1152.Slices ![0, 896] S512x128
  slices_S512x1152_o0_1024_S512x128 : S512x1152.Slices ![0, 1024] S512x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  reducesTo_S8x2048x128_S_d0_1_2 : S8x2048x128.ReducesTo [0, 1, 2] S_
  dot_S512x1024_S1152x1024_S512x1152_1_1_0_0_n_n_wf : DotDims.WF S512x1024 S1152x1024 S512x1152 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .bf16 = 32 ∨ (Rect.block (s := S8x2048x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1152x1024.size a ≤ S8x1152x1024.size a
  hwx0_1 : ∀ i : grid0.Coords, EltTy.bits .bf16 = 32 ∨ (Rect.block (s := S8x1152x1024) S1x1152x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x2048x1.size a
  hwx0_2 : ∀ i : grid0.Coords, EltTy.bits .f32 = 32 ∨ (Rect.block (s := S8x2048x1) S1x512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1152.size a ≤ S8x1x1152.size a
  hwx0_3 : ∀ i : grid0.Coords, EltTy.bits .f32 = 32 ∨ (Rect.block (s := S8x1x1152) S1x1x1152.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x128.size a ≤ S8x2048x128.size a
  hwx0_4 : ∀ i : grid0.Coords, EltTy.bits .f32 = 32 ∨ (Rect.block (s := S8x2048x128) S1x512x128.size (cc0_transform_4 i) (hinb0_4 i)).WholeWords (EltTy.packing .f32)

variable [Facts₀]

def dot_S512x1024_S1152x1024_S512x1152_1_1_0_0_n_n : DotDims S512x1024 S1152x1024 S512x1152 where
  lhsContracting := [1]
  rhsContracting := [1]
  lhsNonContracting := [0]
  rhsNonContracting := [0]
  lhsBatch := []
  rhsBatch := []
  wf := dot_S512x1024_S1152x1024_S512x1152_1_1_0_0_n_n_wf

abbrev win0_0 : Pipeline.Window sig grid0 :=
  Pipeline.Window.ofSpec (Memref.whole main_v13) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1152x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x1152.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S8x1152x1024 : Shape := ⟨3, ![8, 1152, 1024]⟩
abbrev S_ : Shape := ⟨0, ![]⟩
abbrev S8x2048 : Shape := ⟨2, ![8, 2048]⟩
abbrev S8x2048x1 : Shape := ⟨3, ![8, 2048, 1]⟩
abbrev S8x1152 : Shape := ⟨2, ![8, 1152]⟩
abbrev S8x1x1152 : Shape := ⟨3, ![8, 1, 1152]⟩
abbrev S8x2048x1152 : Shape := ⟨3, ![8, 2048, 1152]⟩
abbrev S8x262144x9 : Shape := ⟨3, ![8, 262144, 9]⟩
abbrev S8x262144 : Shape := ⟨2, ![8, 262144]⟩

abbrev nBuf : Space → Nat
  | .hbm => 25
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1152x1024, .f32⟩
  | .hbm, ⟨2, _⟩ => ⟨S8x2048x1024, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S8x1152x1024, .f32⟩
  | .hbm, ⟨7, _⟩ => ⟨S_, .f32⟩
  | .hbm, ⟨8, _⟩ => ⟨S8x1152, .f32⟩
  | .hbm, ⟨9, _⟩ => ⟨S8x1x1152, .f32⟩
  | .hbm, ⟨10, _⟩ => ⟨S8x2048x1152, .f32⟩
  | .hbm, ⟨11, _⟩ => ⟨S8x2048x1152, .f32⟩
  | .hbm, ⟨12, _⟩ => ⟨S8x2048x1152, .f32⟩
  | .hbm, ⟨13, _⟩ => ⟨S8x2048x1152, .f32⟩
  | .hbm, ⟨14, _⟩ => ⟨S_, .f32⟩
  | .hbm, ⟨15, _⟩ => ⟨S8x2048x1152, .f32⟩
  | .hbm, ⟨16, _⟩ => ⟨S8x2048x1152, .f32⟩
  | .hbm, ⟨17, _⟩ => ⟨S8x2048x1152, .f32⟩
  | .hbm, ⟨18, _⟩ => ⟨S8x262144x9, .f32⟩
  | .hbm, ⟨19, _⟩ => ⟨S_, .f32⟩
  | .hbm, ⟨20, _⟩ => ⟨S8x262144, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  reducesTo_S8x2048x1024_S8x2048_d2 : S8x2048x1024.ReducesTo [2] S8x2048
  h_S_ : 0 < S_.numel
  bcast_S8x2048_S8x2048x1_0_1 : S8x2048.BroadcastsInDim S8x2048x1 (![0, 1] : Fin 2 → Fin S8x2048x1.rank)
  reducesTo_S8x1152x1024_S8x1152_d2 : S8x1152x1024.ReducesTo [2] S8x1152
  bcast_S8x1152_S8x1x1152_0_2 : S8x1152.BroadcastsInDim S8x1x1152 (![0, 2] : Fin 2 → Fin S8x1x1152.rank)
  bcast_S8x2048x1_S8x2048x1152_0_1_2 : S8x2048x1.BroadcastsInDim S8x2048x1152 (![0, 1, 2] : Fin 3 → Fin S8x2048x1152.rank)
  bcast_S8x1x1152_S8x2048x1152_0_1_2 : S8x1x1152.BroadcastsInDim S8x2048x1152 (![0, 1, 2] : Fin 3 → Fin S8x2048x1152.rank)
  bcast_S_S8x2048x1152 : S_.BroadcastsInDim S8x2048x1152 (![] : Fin 0 → Fin S8x2048x1152.rank)
  shapeCasts_S8x2048x1152_S8x262144x9 : S8x2048x1152.ShapeCasts S8x262144x9
  reducesTo_S8x262144x9_S8x262144_d2 : S8x262144x9.ReducesTo [2] S8x262144
  reducesTo_S8x262144_S_d0_1 : S8x262144.ReducesTo [0, 1] S_
  dot_S8x2048x1024_S8x1152x1024_S8x2048x1152_2_2_1_1_0_0_wf : DotDims.WF S8x2048x1024 S8x1152x1024 S8x2048x1152 [2] [2] [1] [1] [0] [0]

variable [Facts₀]

def dot_S8x2048x1024_S8x1152x1024_S8x2048x1152_2_2_1_1_0_0 : DotDims S8x2048x1024 S8x1152x1024 S8x2048x1152 where
  lhsContracting := [2]
  rhsContracting := [2]
  lhsNonContracting := [1]
  rhsNonContracting := [1]
  lhsBatch := [0]
  rhsBatch := [0]
  wf := dot_S8x2048x1024_S8x1152x1024_S8x2048x1152_2_2_1_1_0_0_wf

class Facts : Prop extends Facts₀ where

variable [Facts]
-- ==== Proof.Distance.lean ====
/-
  The quantity both programs compute, on the extended reals.

  For `x : [8, 2048, 1024]` and `y : [8, 1152, 1024]` the squared distance between row `n` of `x` and row `m` of `y`
  in batch `b` is written `(‖x‖² + ‖y‖²) − 2 · ⟨x, y⟩`, each norm a sum of squares started from the zero word.  The 1152
  rows of `y` fall into 128 groups of nine consecutive rows; `groupMin` is the least distance from a row of `x` to the
  nine rows of a group, and the result is the mean of `groupMin` over all `8 · 2048 · 128 = 2²¹` (batch, row, group) triples.

  Two small facts serve both sides: a minimum folded over nine values from `⊤` is the nested nine-fold minimum, and a sum
  over the pairs (batch, flat position) of an `[8, 262144]` array is the sum over the triples (batch, row, group) with
  flat position `128 · row + group`.
-/
import Idealize.ShloMosaic.PureOps.Ideal.Laws
import Idealize.ShloMosaic.Lib.ValueIdx
import Mathlib.Data.Finset.Fold

noncomputable section

namespace Cert.Distance

open Idealize.ShloMosaic Idealize.ShloMosaic.ValueIdx

/-- The minimum of nine values, nested from the left. -/
def min9 (f : Fin 9 → EReal) : EReal :=
  min (min (min (min (min (min (min (min (f 0) (f 1)) (f 2)) (f 3)) (f 4)) (f 5)) (f 6)) (f 7)) (f 8)

/-- The nested minimum is below each of its nine arguments. -/
theorem min9_le (f : Fin 9 → EReal) (k : Fin 9) : min9 f ≤ f k := by
  match k with
  | ⟨0, _⟩ => show min9 f ≤ f 0; unfold min9; simp only [min_le_iff, le_refl, true_or, or_true]
  | ⟨1, _⟩ => show min9 f ≤ f 1; unfold min9; simp only [min_le_iff, le_refl, true_or, or_true]
  | ⟨2, _⟩ => show min9 f ≤ f 2; unfold min9; simp only [min_le_iff, le_refl, true_or, or_true]
  | ⟨3, _⟩ => show min9 f ≤ f 3; unfold min9; simp only [min_le_iff, le_refl, true_or, or_true]
  | ⟨4, _⟩ => show min9 f ≤ f 4; unfold min9; simp only [min_le_iff, le_refl, true_or, or_true]
  | ⟨5, _⟩ => show min9 f ≤ f 5; unfold min9; simp only [min_le_iff, le_refl, true_or, or_true]
  | ⟨6, _⟩ => show min9 f ≤ f 6; unfold min9; simp only [min_le_iff, le_refl, true_or, or_true]
  | ⟨7, _⟩ => show min9 f ≤ f 7; unfold min9; simp only [min_le_iff, le_refl, true_or, or_true]
  | ⟨8, _⟩ => show min9 f ≤ f 8; unfold min9; simp only [min_le_iff, le_refl, true_or, or_true]

/-- A minimum folded over nine values, started from `⊤`, is their nested minimum: each is a greatest lower bound of the
    nine values. -/
theorem fold_min_nine (f : Fin 9 → EReal) : (Finset.univ : Finset (Fin 9)).fold min ⊤ f = min9 f := by
  apply le_antisymm
  · have h : ∀ k : Fin 9, (Finset.univ : Finset (Fin 9)).fold min ⊤ f ≤ f k := fun k =>
      (Finset.fold_min_le _).mpr (Or.inr ⟨k, Finset.mem_univ k, le_refl _⟩)
    unfold min9
    exact le_min (le_min (le_min (le_min (le_min (le_min (le_min (le_min (h 0) (h 1)) (h 2)) (h 3)) (h 4)) (h 5)) (h 6)) (h 7)) (h 8)
  · exact (Finset.le_fold_min _).mpr ⟨le_top, fun k _ => min9_le f k⟩

/-- The squared norm of row `(b, n)` of the first array: the zero word plus the sum of its entries' squares. -/
def sqNormX (x : (⟨3, ![8, 2048, 1024]⟩ : Shape).Idx → EReal) (b : Fin 8) (n : Fin 2048) : EReal :=
  Ideal.ofBits .f32 0x00000000#32 + ∑ d : Fin 1024, x (ix3 b n d) * x (ix3 b n d)

/-- The squared norm of row `(b, m)` of the second array. -/
def sqNormY (y : (⟨3, ![8, 1152, 1024]⟩ : Shape).Idx → EReal) (b : Fin 8) (m : Fin 1152) : EReal :=
  Ideal.ofBits .f32 0x00000000#32 + ∑ d : Fin 1024, y (ix3 b m d) * y (ix3 b m d)

/-- The inner product of row `(b, n)` of the first array with row `(b, m)` of the second. -/
def inner (x : (⟨3, ![8, 2048, 1024]⟩ : Shape).Idx → EReal) (y : (⟨3, ![8, 1152, 1024]⟩ : Shape).Idx → EReal)
    (b : Fin 8) (n : Fin 2048) (m : Fin 1152) : EReal :=
  ∑ d : Fin 1024, x (ix3 b n d) * y (ix3 b m d)

/-- The squared distance as both programs spell it: the two norms added, twice the inner product taken away. -/
def sqDist (x : (⟨3, ![8, 2048, 1024]⟩ : Shape).Idx → EReal) (y : (⟨3, ![8, 1152, 1024]⟩ : Shape).Idx → EReal)
    (b : Fin 8) (n : Fin 2048) (m : Fin 1152) : EReal :=
  (sqNormX x b n + sqNormY y b m) - Ideal.ofBits .f32 0x40000000#32 * inner x y b n m

/-- Member `k` of group `g`: groups are runs of nine consecutive rows. -/
def member (g : Fin 128) (k : Fin 9) : Fin 1152 := ⟨9 * g.val + k.val, by have := g.isLt; have := k.isLt; omega⟩

/-- Where member `k` of group `g` sits once the rows are regrouped member-major: position `128 · k + g`. -/
def lane (g : Fin 128) (k : Fin 9) : Fin 1152 := ⟨128 * k.val + g.val, by have := g.isLt; have := k.isLt; omega⟩

/-- The least squared distance from row `(b, n)` to the nine rows of group `g`. -/
def groupMin (x : (⟨3, ![8, 2048, 1024]⟩ : Shape).Idx → EReal) (y : (⟨3, ![8, 1152, 1024]⟩ : Shape).Idx → EReal)
    (b : Fin 8) (n : Fin 2048) (g : Fin 128) : EReal :=
  min9 fun k => sqDist x y b n (member g k)

/-- The array of group minima, one entry per (batch, row, group). -/
def groupMins (x : (⟨3, ![8, 2048, 1024]⟩ : Shape).Idx → EReal) (y : (⟨3, ![8, 1152, 1024]⟩ : Shape).Idx → EReal) :
    (⟨3, ![8, 2048, 128]⟩ : Shape).Idx → EReal :=
  fun i => groupMin x y (i 0) (i 1) (i 2)

/-- The mean of the group minima: their sum from the zero word, divided by the count's word. -/
def meanGroupMin (x : (⟨3, ![8, 2048, 1024]⟩ : Shape).Idx → EReal) (y : (⟨3, ![8, 1152, 1024]⟩ : Shape).Idx → EReal) : EReal :=
  Ideal.div (Ideal.ofBits .f32 0x00000000#32 + ∑ i : (⟨3, ![8, 2048, 128]⟩ : Shape).Idx, groupMins x y i)
    (Ideal.ofBits .f32 0x4A000000#32)

/-- Flat position `128 · n + g` of the pair (row, group) among the `2048 · 128` pairs of a batch. -/
def flat (n : Fin 2048) (g : Fin 128) : Fin 262144 := ⟨128 * n.val + g.val, by have := n.isLt; have := g.isLt; omega⟩

/-- A sum over (batch, flat position) is the sum over (batch, row, group): the two index sets are matched by their
    row-major positions. -/
theorem sum_flat (f : (⟨2, ![8, 262144]⟩ : Shape).Idx → EReal) :
    ∑ j : (⟨2, ![8, 262144]⟩ : Shape).Idx, f j
      = ∑ i : (⟨3, ![8, 2048, 128]⟩ : Shape).Idx, f (ix2 (i 0) (flat (i 1) (i 2))) := by
  have hn : (⟨3, ![8, 2048, 128]⟩ : Shape).numel = (⟨2, ![8, 262144]⟩ : Shape).numel := by decide
  rw [← Equiv.sum_comp (Shape.reshapeEquiv hn) f]
  refine Finset.sum_congr rfl fun i _ => congrArg f (Shape.reshapeEquiv_eq_of_rowMajor hn ?_)
  rw [Shape.rowMajor_val_two, Shape.rowMajor_val_three]
  show (i 0).val * 262144 + (128 * (i 1).val + (i 2).val) = ((i 0).val * 2048 + (i 1).val) * 128 + (i 2).val
  omega

end Cert.Distance

end
-- ==== Proof.HostPrefix.lean ====
/-
  The four arrays the launch is handed, each read at an entry.

  Before the launch the program rounds the first array, regroups the rows of the second so that member `k` of group `g`
  (row `9 · g + k`) sits at row `128 · k + g`, sums the squares of each row of either array, lays the first array's row norms
  out as a column and the second's — regrouped in the same way — as a row.  At the ideal values the rounding is the
  identity, so each of the four is the argument, or a row norm of it, at a permuted position.
-/
import proofs.«102514_j15195594293783_2_alg».proof.Proof.Gen.KernelIdeal
import proofs.«102514_j15195594293783_2_alg».proof.Proof.Distance
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.HostPrefix

open Idealize.ShloMosaic Idealize.ShloMosaic.ValueIdx Cert.KernelIdeal Cert.KernelIdeal.Gen Cert.Distance

/-- The row norms of the first array: each row's squares summed from the zero word. -/
def rowNormsX (a0 : FVec Ideal S8x2048x1024 .f32) : FVec Ideal S8x2048 .f32 :=
  Host.reduceAdd (mulf a0 a0) (constant S_ .f32 0x00000000#32) reducesTo_S8x2048x1024_S8x2048_d2 h_S_

/-- The row norms of the second array. -/
def rowNormsY (a1 : FVec Ideal S8x1152x1024 .f32) : FVec Ideal S8x1152 .f32 :=
  Host.reduceAdd (mulf a1 a1) (constant S_ .f32 0x00000000#32) reducesTo_S8x1152x1024_S8x1152_d2 h_S_

theorem rowNormsX_apply (a0 : FVec Ideal S8x2048x1024 .f32) (b : Fin 8) (n : Fin 2048) :
    rowNormsX a0 (ix2 b n) = sqNormX a0 b n := by
  have hR : S8x2048x1024.Reduces [2] S8x2048 := by decide
  unfold rowNormsX sqNormX
  simp only [Host.reduceAdd, Ideal.hostReduceAdd_def]
  rw [Ideal.hostReduceAdd_single reducesTo_S8x2048x1024_S8x2048_d2 hR]
  refine congrArg (_ + ·) (Finset.sum_congr rfl fun d _ => ?_)
  have e : hR.lift (ix2 b n) d = ix3 b n d :=
    funext fun a => Fin.ext (by match a with | ⟨0, _⟩ => rfl | ⟨1, _⟩ => rfl | ⟨2, _⟩ => rfl)
  rw [e]; rfl

theorem rowNormsY_apply (a1 : FVec Ideal S8x1152x1024 .f32) (b : Fin 8) (q : Fin 1152) :
    rowNormsY a1 (ix2 b q) = sqNormY a1 b q := by
  have hR : S8x1152x1024.Reduces [2] S8x1152 := by decide
  unfold rowNormsY sqNormY
  simp only [Host.reduceAdd, Ideal.hostReduceAdd_def]
  rw [Ideal.hostReduceAdd_single reducesTo_S8x1152x1024_S8x1152_d2 hR]
  refine congrArg (_ + ·) (Finset.sum_congr rfl fun d _ => ?_)
  have e : hR.lift (ix2 b q) d = ix3 b q d :=
    funext fun a => Fin.ext (by match a with | ⟨0, _⟩ => rfl | ⟨1, _⟩ => rfl | ⟨2, _⟩ => rfl)
  rw [e]; rfl

/-- The first array rounded: the launch's first operand. -/
def roundX (a0 : FVec Ideal S8x2048x1024 .f32) : FVec Ideal S8x2048x1024 .bf16 := truncf .bf16 a0 bitsLt_bf16_f32

theorem roundX_apply (a0 : FVec Ideal S8x2048x1024 .f32) (i : S8x2048x1024.Idx) : roundX a0 i = a0 i := rfl

/-- The second array with its rows regrouped member-major, then rounded: the launch's second operand. -/
def regroupY (a1 : FVec Ideal S8x1152x1024 .f32) : FVec Ideal S8x1152x1024 .bf16 :=
  truncf .bf16
    (shapeCast S8x1152x1024
      (transpose S8x9x128x1024 [0, 2, 1, 3] (shapeCast S8x128x9x1024 a1 shapeCasts_S8x1152x1024_S8x128x9x1024)
        transposes_S8x128x9x1024_S8x9x128x1024_0_2_1_3)
      shapeCasts_S8x9x128x1024_S8x1152x1024 : FVec Ideal S8x1152x1024 .f32)
    bitsLt_bf16_f32

/-- Row `128 · k + g` of the regrouped array is row `9 · g + k` of the argument. -/
theorem regroupY_apply (a1 : FVec Ideal S8x1152x1024 .f32) (b : Fin 8) (g : Fin 128) (k : Fin 9) (d : Fin 1024) :
    regroupY a1 (ix3 b (lane g k) d) = a1 (ix3 b (member g k) d) := by
  unfold regroupY
  rw [truncf_apply]
  refine (shapeCast_apply _ shapeCasts_S8x9x128x1024_S8x1152x1024 (ix3 b (lane g k) d) (ix4 b k g d) ?_).trans ?_
  · rw [Shape.rowMajor_val_four, Shape.rowMajor_val_three]
    show ((b.val * 9 + k.val) * 128 + g.val) * 1024 + d.val = (b.val * 1152 + (128 * k.val + g.val)) * 1024 + d.val
    omega
  refine (transpose_apply [0, 2, 1, 3] _ transposes_S8x128x9x1024_S8x9x128x1024_0_2_1_3 (ix4 b k g d) (ix4 b g k d)
    fun c => ?_).trans ?_
  · match c with
    | ⟨0, _⟩ => rfl
    | ⟨1, _⟩ => rfl
    | ⟨2, _⟩ => rfl
    | ⟨3, _⟩ => rfl
  exact shapeCast_apply a1 shapeCasts_S8x1152x1024_S8x128x9x1024 (ix4 b g k d) (ix3 b (member g k) d) (by
    rw [Shape.rowMajor_val_three, Shape.rowMajor_val_four]
    show (b.val * 1152 + (9 * g.val + k.val)) * 1024 + d.val = ((b.val * 128 + g.val) * 9 + k.val) * 1024 + d.val
    omega)

/-- The first array's row norms as a column: the launch's third operand. -/
def normColX (a0 : FVec Ideal S8x2048x1024 .f32) : FVec Ideal S8x2048x1 .f32 :=
  broadcastInDim S8x2048x1 ![0, 1] bcast_S8x2048_S8x2048x1_0_1 (rowNormsX a0)

theorem normColX_apply (a0 : FVec Ideal S8x2048x1024 .f32) (b : Fin 8) (n : Fin 2048) :
    normColX a0 (ix3 b n (0 : Fin 1)) = sqNormX a0 b n := by
  unfold normColX
  refine (broadcastInDim_apply _ bcast_S8x2048_S8x2048x1_0_1 _ (ix3 b n (0 : Fin 1)) (ix2 b n) fun a => ?_).trans
    (rowNormsX_apply a0 b n)
  match a with
  | ⟨0, _⟩ => show b.val = if (8 : ℕ) = 1 then 0 else b.val; rw [if_neg (by decide)]
  | ⟨1, _⟩ => show n.val = if (2048 : ℕ) = 1 then 0 else n.val; rw [if_neg (by decide)]

/-- The second array's row norms, regrouped member-major, as a row: the launch's fourth operand. -/
def normRowY (a1 : FVec Ideal S8x1152x1024 .f32) : FVec Ideal S8x1x1152 .f32 :=
  broadcastInDim S8x1x1152 ![0, 2] bcast_S8x1152_S8x1x1152_0_2
    (shapeCast S8x1152
      (transpose S8x9x128 [0, 2, 1] (shapeCast S8x128x9 (rowNormsY a1) shapeCasts_S8x1152_S8x128x9)
        transposes_S8x128x9_S8x9x128_0_2_1)
      shapeCasts_S8x9x128_S8x1152)

/-- Position `128 · k + g` of the norm row holds the norm of row `9 · g + k`. -/
theorem normRowY_apply (a1 : FVec Ideal S8x1152x1024 .f32) (b : Fin 8) (g : Fin 128) (k : Fin 9) :
    normRowY a1 (ix3 b (0 : Fin 1) (lane g k)) = sqNormY a1 b (member g k) := by
  unfold normRowY
  refine (broadcastInDim_apply _ bcast_S8x1152_S8x1x1152_0_2 _ (ix3 b (0 : Fin 1) (lane g k)) (ix2 b (lane g k))
    fun a => ?_).trans ?_
  · match a with
    | ⟨0, _⟩ => show b.val = if (8 : ℕ) = 1 then 0 else b.val; rw [if_neg (by decide)]
    | ⟨1, _⟩ => show (lane g k).val = if (1152 : ℕ) = 1 then 0 else (lane g k).val; rw [if_neg (by decide)]
  refine (shapeCast_apply _ shapeCasts_S8x9x128_S8x1152 (ix2 b (lane g k)) (ix3 b k g) ?_).trans ?_
  · rw [Shape.rowMajor_val_three, Shape.rowMajor_val_two]
    show (b.val * 9 + k.val) * 128 + g.val = b.val * 1152 + (128 * k.val + g.val)
    omega
  refine (transpose_ix3_021_apply _ transposes_S8x128x9_S8x9x128_0_2_1 b k g).trans ?_
  refine (shapeCast_apply _ shapeCasts_S8x1152_S8x128x9 (ix3 b g k) (ix2 b (member g k)) ?_).trans ?_
  · rw [Shape.rowMajor_val_two, Shape.rowMajor_val_three]
    show b.val * 1152 + (9 * g.val + k.val) = (b.val * 128 + g.val) * 9 + k.val
    omega
  exact rowNormsY_apply a1 b (member g k)

end Cert.KernelIdeal.HostPrefix

end
-- ==== Proof.BlockReads.lean ====
/-
  Where a grid point's blocks sit in the arrays, and that the output's blocks tile it.

  Grid point `t` works on batch `B` and on rows `512 · I .. 512 · I + 511` of the first array, `(B, I)` the point's two
  coordinates.  Its four input blocks are rows of the rounded first array, the whole regrouped second array of the batch,
  the rows' norms and the batch's regrouped norm row; its output block is rows `512 · I ..` of batch `B` of the
  `[8, 2048, 128]` output, and the 32 output blocks cover that array.
-/
import proofs.«102514_j15195594293783_2_alg».proof.Proof.Gen.KernelIdeal.Frame
import proofs.«102514_j15195594293783_2_alg».proof.Proof.HostPrefix
import proofs.«102514_j15195594293783_2_alg».proof.Proof.Distance
import Idealize.ShloMosaic.Lib.Pipeline.Value
import Idealize.ShloMosaic.Lib.StableHlo.Run
import Idealize.ShloMosaic.Lib.ValueIdx
import Idealize.ShloMosaic.PureOps.Ideal.Laws

set_option maxRecDepth 16384

noncomputable section

namespace Cert.KernelIdeal.BlockReads

open Idealize.ShloMosaic Idealize.ShloMosaic.TcCoe Idealize.ShloMosaic.ValueIdx Idealize.SL.Sem
open Idealize.ShloMosaic.StableHlo
open Cert.KernelIdeal Cert.KernelIdeal.Gen Cert.Distance
open Idealize.ShloMosaic.Pipeline (Dat Cfg Window)

variable (m : (ℓ : Loc nD τ sig) → Buf (Elt Ideal) ℓ) (ρ : Dev nD → PrngReg)

/-! ## The operand arrays as the launch finds them -/

theorem V_x (c : Dev nD) :
    (V m c main_v13 : FVec Ideal S8x2048x1024 .bf16) = HostPrefix.roundX (m ((c : Thread nD τ).loc main_arg0)) := by
  show StableHlo.after hostOps0 (fun b => m (c, b)) (Proc.devRef .tc main_v13) = _
  after_results
  rfl

theorem V_y (c : Dev nD) :
    (V m c main_v3 : FVec Ideal S8x1152x1024 .bf16) = HostPrefix.regroupY (m ((c : Thread nD τ).loc main_arg1)) := by
  show StableHlo.after hostOps0 (fun b => m (c, b)) (Proc.devRef .tc main_v3) = _
  after_results
  rfl

theorem V_nx (c : Dev nD) :
    (V m c main_v12 : FVec Ideal S8x2048x1 .f32) = HostPrefix.normColX (m ((c : Thread nD τ).loc main_arg0)) := by
  show StableHlo.after hostOps0 (fun b => m (c, b)) (Proc.devRef .tc main_v12) = _
  after_results
  rfl

theorem V_ny (c : Dev nD) :
    (V m c main_v9 : FVec Ideal S8x1x1152 .f32) = HostPrefix.normRowY (m ((c : Thread nD τ).loc main_arg1)) := by
  show StableHlo.after hostOps0 (fun b => m (c, b)) (Proc.devRef .tc main_v9) = _
  after_results
  rfl

/-! ## Where a point's blocks sit -/

theorem hz : (![0, 0, 0] : Fin 3 → Nat) = fun _ => 0 := funext fun a => by fin_cases a <;> rfl

/-- The block indices of the five windows at a point: the output's are (batch, row block, 0); the first array's and its
    norms' follow them; the second array's and its norms' follow the batch alone. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = win0_4.index t (1 : Fin 3)
    ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) ≤ 7 ∧ win0_4.index t (1 : Fin 3) ≤ 3 ∧ win0_4.index t (2 : Fin 3) = 0 :=
  (by decide +kernel : ∀ t : Fin grid0.N, _)

/-- Every (batch, row block) is some point's. -/
theorem idx_onto : ∀ (q0 : Fin 8) (q1 : Fin 4), ∃ t : Fin cfg0.N, win0_4.index t = ![q0.val, q1.val, 0] :=
  (by decide +kernel : ∀ (q0 : Fin 8) (q1 : Fin 4), ∃ t : Fin grid0.N, win0_4.index t = ![q0.val, q1.val, 0])

/-- The batch a point works on. -/
def batchOf (t : Fin cfg0.N) : Fin 8 := ⟨win0_4.index t (0 : Fin 3), by have := idx_facts t; omega⟩

/-- The row of the first array that sits at row `r` of a point's block. -/
def rowOf (t : Fin cfg0.N) (r : Fin 512) : Fin 2048 :=
  ⟨win0_4.index t (1 : Fin 3) * 512 + r.val, by have := idx_facts t; have := r.isLt; omega⟩

theorem blkX (c : Dev nD) (t : Fin cfg0.N) (r : Fin 512) (d : Fin 1024) :
    iblk m c 0 t (ix3 (0 : Fin 1) r d) = m ((c : Thread nD τ).loc main_arg0) (ix3 (batchOf t) (rowOf t r) d) := by
  show V m c main_v13 (((cfg0.win 0).blk t).view.emb (ix3 (0 : Fin 1) r d)) = _
  rw [V_x, HostPrefix.roundX_apply]
  refine congrArg _ (funext fun a => Fin.ext ?_)
  obtain ⟨e0, e1, e2, -⟩ := idx_facts t
  match a with
  | ⟨0, _⟩ => show win0_0.index t (0 : Fin 3) * 1 + 1 * 0 = win0_4.index t (0 : Fin 3); omega
  | ⟨1, _⟩ => show win0_0.index t (1 : Fin 3) * 512 + 1 * r.val = win0_4.index t (1 : Fin 3) * 512 + r.val; omega
  | ⟨2, _⟩ => show win0_0.index t (2 : Fin 3) * 1024 + 1 * d.val = d.val; omega

theorem blkY (c : Dev nD) (t : Fin cfg0.N) (q : Fin 1152) (d : Fin 1024) :
    iblk m c 1 t (ix3 (0 : Fin 1) q d) = HostPrefix.regroupY (m ((c : Thread nD τ).loc main_arg1)) (ix3 (batchOf t) q d) := by
  show V m c main_v3 (((cfg0.win 1).blk t).view.emb (ix3 (0 : Fin 1) q d)) = _
  rw [V_y]
  refine congrArg _ (funext fun a => Fin.ext ?_)
  obtain ⟨-, -, -, e0, e1, e2, -⟩ := idx_facts t
  match a with
  | ⟨0, _⟩ => show win0_1.index t (0 : Fin 3) * 1 + 1 * 0 = win0_4.index t (0 : Fin 3); omega
  | ⟨1, _⟩ => show win0_1.index t (1 : Fin 3) * 1152 + 1 * q.val = q.val; omega
  | ⟨2, _⟩ => show win0_1.index t (2 : Fin 3) * 1024 + 1 * d.val = d.val; omega

theorem blkNX (c : Dev nD) (t : Fin cfg0.N) (r : Fin 512) :
    iblk m c 2 t (ix3 (0 : Fin 1) r (0 : Fin 1))
      = HostPrefix.normColX (m ((c : Thread nD τ).loc main_arg0)) (ix3 (batchOf t) (rowOf t r) (0 : Fin 1)) := by
  show V m c main_v12 (((cfg0.win 2).blk t).view.emb (ix3 (0 : Fin 1) r (0 : Fin 1))) = _
  rw [V_nx]
  refine congrArg _ (funext fun a => Fin.ext ?_)
  obtain ⟨-, -, -, -, -, -, e0, e1, e2, -⟩ := idx_facts t
  match a with
  | ⟨0, _⟩ => show win0_2.index t (0 : Fin 3) * 1 + 1 * 0 = win0_4.index t (0 : Fin 3); omega
  | ⟨1, _⟩ => show win0_2.index t (1 : Fin 3) * 512 + 1 * r.val = win0_4.index t (1 : Fin 3) * 512 + r.val; omega
  | ⟨2, _⟩ => show win0_2.index t (2 : Fin 3) * 1 + 1 * 0 = 0; omega

theorem blkNY (c : Dev nD) (t : Fin cfg0.N) (q : Fin 1152) :
    iblk m c 3 t (ix3 (0 : Fin 1) (0 : Fin 1) q)
      = HostPrefix.normRowY (m ((c : Thread nD τ).loc main_arg1)) (ix3 (batchOf t) (0 : Fin 1) q) := by
  show V m c main_v9 (((cfg0.win 3).blk t).view.emb (ix3 (0 : Fin 1) (0 : Fin 1) q)) = _
  rw [V_ny]
  refine congrArg _ (funext fun a => Fin.ext ?_)
  obtain ⟨-, -, -, -, -, -, -, -, -, e0, e1, e2, -⟩ := idx_facts t
  match a with
  | ⟨0, _⟩ => show win0_3.index t (0 : Fin 3) * 1 + 1 * 0 = win0_4.index t (0 : Fin 3); omega
  | ⟨1, _⟩ => show win0_3.index t (1 : Fin 3) * 1 + 1 * 0 = 0; omega
  | ⟨2, _⟩ => show win0_3.index t (2 : Fin 3) * 1152 + 1 * q.val = q.val; omega

theorem embOut (t : Fin cfg0.N) (r : Fin 512) (g : Fin 128) :
    ((cfg0.win 4).blk t).view.emb (ix3 (0 : Fin 1) r g) = (ix3 (batchOf t) (rowOf t r) g : S8x2048x128.Idx) := by
  refine funext fun a => Fin.ext ?_
  obtain ⟨-, -, -, -, -, -, -, -, -, -, -, -, -, -, e2⟩ := idx_facts t
  match a with
  | ⟨0, _⟩ => show win0_4.index t (0 : Fin 3) * 1 + 1 * 0 = win0_4.index t (0 : Fin 3); omega
  | ⟨1, _⟩ => show win0_4.index t (1 : Fin 3) * 512 + 1 * r.val = win0_4.index t (1 : Fin 3) * 512 + r.val; omega
  | ⟨2, _⟩ => show win0_4.index t (2 : Fin 3) * 128 + 1 * g.val = g.val; omega

/-! ## The output's blocks tile it -/

/-- An index of the output is in point `t`'s block iff each coordinate is in the block's range on its axis. -/
theorem mem_blk (t : Fin cfg0.N) (i : S8x2048x128.Idx) :
    i ∈ ((cfg0.win 4).blk t).view.set ↔ ∀ a : Fin 3, win0_4.index t a * S1x512x128.size a ≤ (i a).val
      ∧ (i a).val < win0_4.index t a * S1x512x128.size a + S1x512x128.size a := by
  show i ∈ ((View.whole main_v14).slice (win0_4.rect t)).set ↔ _
  rw [View.set_slice_whole, Rect.mem_set_unit]
  exact Iff.rfl

/-- Every index of the output is in the block of the point of its batch and row block. -/
theorem cover (i : S8x2048x128.Idx) :
    ∃ t : Fin cfg0.N, (cfg0.win 4).flush t = true ∧ i ∈ ((cfg0.win 4).blk t).view.set := by
  have h0 : (i 0).val < 8 := (i 0).isLt
  have h1 : (i 1).val < 2048 := (i 1).isLt
  have h2 : (i 2).val < 128 := (i 2).isLt
  obtain ⟨t, ht⟩ := idx_onto ⟨(i 0).val, h0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 128 ≤ (i 2).val ∧ (i 2).val < win0_4.index t (2 : Fin 3) * 128 + 128
    omega

end Cert.KernelIdeal.BlockReads

end
-- ==== Proof.LibBroadcast.lean ====
/-
  Broadcasts of a single column, read at an index, and the two small re-layouts of a vector as a matrix.

  An `[a, 1]` array broadcast to `[a, b]` has at `(p, c)` the column's entry `p`.  A vector of length `n` re-laid as a
  `[1, n]` row or as an `[n, 1]` column keeps its entries in order.
-/
import Idealize.ShloMosaic.Lib.Pipeline.Value
import Idealize.ShloMosaic.Lib.ValueLayout
import Idealize.ShloMosaic.Lib.ValueIdx

noncomputable section

namespace Cert.Layout

open Idealize.ShloMosaic Idealize.ShloMosaic.ValueIdx

variable {α : Type}

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector re-laid as a one-row matrix: entry `(0, q)` is entry `q`. -/
theorem shapeCast_row_apply {n : ℕ} (v : (⟨1, ![n]⟩ : Shape).Idx → α) (h : (⟨1, ![n]⟩ : Shape).ShapeCasts ⟨2, ![1, n]⟩) (q : Fin n) :
    shapeCast (⟨2, ![1, n]⟩ : Shape) v h (ix2 (0 : Fin 1) q) = v (ix1 q) := by
  refine shapeCast_apply v h (ix2 (0 : Fin 1) q) (ix1 q) ?_
  rw [Shape.rowMajor_val_two, Shape.rowMajor_val_one]
  show q.val = 0 * n + q.val
  omega

/-- A vector re-laid as a one-column matrix: entry `(p, 0)` is entry `p`. -/
theorem shapeCast_col_apply {n : ℕ} (v : (⟨1, ![n]⟩ : Shape).Idx → α) (h : (⟨1, ![n]⟩ : Shape).ShapeCasts ⟨2, ![n, 1]⟩) (p : Fin n) :
    shapeCast (⟨2, ![n, 1]⟩ : Shape) v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

end Cert.Layout

end
-- ==== Proof.LibRowsProduct.lean ====
/-
  Two small facts about `[m, k]` arrays, at the ideal values where a product is an exact sum.

  A one-row matrix broadcast down `a` rows has at `(p, q)` the row's entry `q`.  The matrix product that contracts the
  SECOND axis of both operands — `A · Bᵀ` for `A : [m, k]`, `B : [n, k]` — into a zero accumulator has at `(a, b)` the
  sum over `c` of `A (a, c) · B (b, c)`.
-/
import Idealize.ShloMosaic.Lib.Pipeline.Value
import Idealize.ShloMosaic.Lib.ValueLayout
import Idealize.ShloMosaic.Lib.ValueIdx
import Idealize.ShloMosaic.PureOps.Ideal.Laws

noncomputable section

namespace Cert.RowsProduct

open Idealize.ShloMosaic Idealize.ShloMosaic.ValueIdx

/-- A `[1, n]` array broadcast to `[a, n]` reads, at `(p, q)`, the operand's one row at `q`. -/
theorem broadcastTo_1n_an_apply {α : Type} {a n : ℕ} (v : (⟨2, ![1, n]⟩ : Shape).Idx → α)
    (h : (⟨2, ![1, n]⟩ : Shape).Broadcasts ⟨2, ![a, n]⟩) (p : Fin a) (q : Fin n) :
    broadcastTo ⟨2, ![a, n]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if n = 1 then 0 else q.val
    split
    · have := q.isLt; omega
    · rfl

/-- `A · Bᵀ` into the zero accumulator, read at `(a, b)`: the sum over the shared second coordinate of the products. -/
theorem matmul_nt_apply {m n k : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims _ _ _) prec A B (constant _ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.RowsProduct

end
-- ==== Proof.BlockValue.lean ====
/-
  What one grid point's body stores, read at an entry.

  The body holds a `[512, 1024]` block of the first array, the whole `[1152, 1024]` regrouped second array of its batch,
  the block's 512 squared norms as a column and the 1152 squared norms as a row.  It forms the `[512, 1152]` matrix
  `(norm r + norm c) − 2 · ⟨row r, row c⟩` and stores, at `(r, g)`, the minimum over the nine column slabs of width 128 of
  that matrix at column `128 · k + g`.
-/
import proofs.«102514_j15195594293783_2_alg».proof.Proof.Gen.KernelIdeal.Skeleton
import proofs.«102514_j15195594293783_2_alg».proof.Proof.Distance
import proofs.«102514_j15195594293783_2_alg».proof.Proof.LibBroadcast
import proofs.«102514_j15195594293783_2_alg».proof.Proof.LibRowsProduct
import Idealize.ShloMosaic.Lib.ValueLayout
import Idealize.ShloMosaic.Lib.ValueIdx
import Idealize.ShloMosaic.PureOps.Ideal.Laws

noncomputable section

namespace Cert.KernelIdeal.BlockValue

open Idealize.ShloMosaic Idealize.ShloMosaic.ValueIdx Cert.KernelIdeal Cert.KernelIdeal.Gen Cert.Distance

/-- The block's matrix of squared distances, as the body computes it from its four loads. -/
def distBlock (x0 : Vec Ideal S1x512x1024 .bf16) (x1 : Vec Ideal S1x1152x1024 .bf16) (x2 : Vec Ideal S1x512x1 .f32)
    (x3 : Vec Ideal S1x1x1152 .f32) : FVec Ideal S512x1152 .f32 :=
  subf
    (addf (broadcastTo S512x1152 (shapeCast S512x1 x2 shapeCasts_S1x512x1_S512x1 : FVec Ideal S512x1 .f32) broadcasts_S512x1_S512x1152)
      (broadcastTo S512x1152 (shapeCast S1x1152 x3 shapeCasts_S1x1x1152_S1x1152 : FVec Ideal S1x1152 .f32) broadcasts_S1x1152_S512x1152))
    (mulf (broadcast S512x1152 (Scalar.ofBits .f32 0x40000000#32))
      (matmul dot_S512x1024_S1152x1024_S512x1152_1_1_0_0_n_n none (shapeCast S512x1024 x0 shapeCasts_S1x512x1024_S512x1024 : FVec Ideal S512x1024 .bf16)
        (shapeCast S1152x1024 x1 shapeCasts_S1x1152x1024_S1152x1024 : FVec Ideal S1152x1024 .bf16) (constant S512x1152 .f32 0x00000000#32)))

/-- The minimum, entry by entry, over the nine slabs of 128 columns of a `[512, 1152]` matrix. -/
def slabMin (D : FVec Ideal S512x1152 .f32) : FVec Ideal S512x128 .f32 :=
  minimumf (minimumf (minimumf (minimumf (minimumf (minimumf (minimumf (minimumf
    (extractStridedSlice S512x128 ![0, 0] D slices_S512x1152_o0_0_S512x128)
    (extractStridedSlice S512x128 ![0, 128] D slices_S512x1152_o0_128_S512x128))
    (extractStridedSlice S512x128 ![0, 256] D slices_S512x1152_o0_256_S512x128))
    (extractStridedSlice S512x128 ![0, 384] D slices_S512x1152_o0_384_S512x128))
    (extractStridedSlice S512x128 ![0, 512] D slices_S512x1152_o0_512_S512x128))
    (extractStridedSlice S512x128 ![0, 640] D slices_S512x1152_o0_640_S512x128))
    (extractStridedSlice S512x128 ![0, 768] D slices_S512x1152_o0_768_S512x128))
    (extractStridedSlice S512x128 ![0, 896] D slices_S512x1152_o0_896_S512x128))
    (extractStridedSlice S512x128 ![0, 1024] D slices_S512x1152_o0_1024_S512x128)

/-- The stored value is the slab minimum of the distance matrix, with a leading unit axis put back. -/
theorem pay_eq (x0 : Vec Ideal S1x512x1024 .bf16) (x1 : Vec Ideal S1x1152x1024 .bf16) (x2 : Vec Ideal S1x512x1 .f32)
    (x3 : Vec Ideal S1x1x1152 .f32) :
    k0_pay1 (F := Ideal) x0 x1 x2 x3
      = shapeCast S1x512x128 (slabMin (distBlock x0 x1 x2 x3)) shapeCasts_S512x128_S1x512x128 := rfl

/-- Entry `(r, c)` of the distance matrix: the two norms the body was handed, added, less twice the inner product of
    row `r` of the first block with row `c` of the second. -/
theorem distBlock_apply (x0 : Vec Ideal S1x512x1024 .bf16) (x1 : Vec Ideal S1x1152x1024 .bf16) (x2 : Vec Ideal S1x512x1 .f32)
    (x3 : Vec Ideal S1x1x1152 .f32) (r : Fin 512) (c : Fin 1152) :
    distBlock x0 x1 x2 x3 (ix2 r c)
      = (x2 (ix3 (0 : Fin 1) r (0 : Fin 1)) + x3 (ix3 (0 : Fin 1) (0 : Fin 1) c))
        - Ideal.ofBits .f32 0x40000000#32 * ∑ d : Fin 1024, x0 (ix3 (0 : Fin 1) r d) * x1 (ix3 (0 : Fin 1) c d) := by
  have e1 : broadcastTo S512x1152 (shapeCast S512x1 x2 shapeCasts_S1x512x1_S512x1 : FVec Ideal S512x1 .f32) broadcasts_S512x1_S512x1152 (ix2 r c)
      = x2 (ix3 (0 : Fin 1) r (0 : Fin 1)) :=
    (Cert.Layout.broadcastTo_a1_ab_apply _ broadcasts_S512x1_S512x1152 r c).trans
      (shapeCast_1ab_ab_apply x2 shapeCasts_S1x512x1_S512x1 r (0 : Fin 1))
  have e2 : broadcastTo S512x1152 (shapeCast S1x1152 x3 shapeCasts_S1x1x1152_S1x1152 : FVec Ideal S1x1152 .f32) broadcasts_S1x1152_S512x1152 (ix2 r c)
      = x3 (ix3 (0 : Fin 1) (0 : Fin 1) c) :=
    (broadcastTo_1b_ab_apply _ broadcasts_S1x1152_S512x1152 r c).trans
      (shapeCast_1ab_ab_apply x3 shapeCasts_S1x1x1152_S1x1152 (0 : Fin 1) c)
  have e3 : matmul dot_S512x1024_S1152x1024_S512x1152_1_1_0_0_n_n none (shapeCast S512x1024 x0 shapeCasts_S1x512x1024_S512x1024 : FVec Ideal S512x1024 .bf16)
        (shapeCast S1152x1024 x1 shapeCasts_S1x1152x1024_S1152x1024 : FVec Ideal S1152x1024 .bf16) (constant S512x1152 .f32 0x00000000#32) (ix2 r c)
      = ∑ d : Fin 1024, x0 (ix3 (0 : Fin 1) r d) * x1 (ix3 (0 : Fin 1) c d) :=
    (Cert.RowsProduct.matmul_nt_apply (φ₁ := .bf16) (φ₂ := .bf16) dot_S512x1024_S1152x1024_S512x1152_1_1_0_0_n_n.wf none
        (shapeCast S512x1024 x0 shapeCasts_S1x512x1024_S512x1024 : FVec Ideal S512x1024 .bf16) (shapeCast S1152x1024 x1 shapeCasts_S1x1152x1024_S1152x1024 : FVec Ideal S1152x1024 .bf16) r c).trans
      (Finset.sum_congr rfl fun d _ => by
        rw [shapeCast_1ab_ab_apply x0 shapeCasts_S1x512x1024_S512x1024 r d,
          shapeCast_1ab_ab_apply x1 shapeCasts_S1x1152x1024_S1152x1024 c d])
  unfold distBlock
  rw [subf_apply, addf_apply, mulf_apply, broadcast_apply, e1, e2, e3]
  rfl

/-- Entry `(r, g)` of the slab minimum: the nested minimum over the nine slabs of the matrix at column `128 · k + g`. -/
theorem slabMin_apply (D : FVec Ideal S512x1152 .f32) (r : Fin 512) (g : Fin 128) :
    slabMin D (ix2 r g) = min9 fun k => D (ix2 r (lane g k)) := by
  have s0 := slice2_axis1_apply 0 D slices_S512x1152_o0_0_S512x128 r g (lane g 0) (by show 128 * 0 + g.val = 0 + g.val; omega)
  have s1 := slice2_axis1_apply 128 D slices_S512x1152_o0_128_S512x128 r g (lane g 1) (by show 128 * 1 + g.val = 128 + g.val; omega)
  have s2 := slice2_axis1_apply 256 D slices_S512x1152_o0_256_S512x128 r g (lane g 2) (by show 128 * 2 + g.val = 256 + g.val; omega)
  have s3 := slice2_axis1_apply 384 D slices_S512x1152_o0_384_S512x128 r g (lane g 3) (by show 128 * 3 + g.val = 384 + g.val; omega)
  have s4 := slice2_axis1_apply 512 D slices_S512x1152_o0_512_S512x128 r g (lane g 4) (by show 128 * 4 + g.val = 512 + g.val; omega)
  have s5 := slice2_axis1_apply 640 D slices_S512x1152_o0_640_S512x128 r g (lane g 5) (by show 128 * 5 + g.val = 640 + g.val; omega)
  have s6 := slice2_axis1_apply 768 D slices_S512x1152_o0_768_S512x128 r g (lane g 6) (by show 128 * 6 + g.val = 768 + g.val; omega)
  have s7 := slice2_axis1_apply 896 D slices_S512x1152_o0_896_S512x128 r g (lane g 7) (by show 128 * 7 + g.val = 896 + g.val; omega)
  have s8 := slice2_axis1_apply 1024 D slices_S512x1152_o0_1024_S512x128 r g (lane g 8) (by show 128 * 8 + g.val = 1024 + g.val; omega)
  unfold slabMin min9
  simp only [minimumf_apply]
  rw [s0, s1, s2, s3, s4, s5, s6, s7, s8]

/-- What the body stores at `(0, r, g)`: the least, over the nine slabs, of the squared distance from row `r` of the first
    block to row `128 · k + g` of the second. -/
theorem pay_apply (x0 : Vec Ideal S1x512x1024 .bf16) (x1 : Vec Ideal S1x1152x1024 .bf16) (x2 : Vec Ideal S1x512x1 .f32)
    (x3 : Vec Ideal S1x1x1152 .f32) (r : Fin 512) (g : Fin 128) :
    k0_pay1 (F := Ideal) x0 x1 x2 x3 (ix3 (0 : Fin 1) r g)
      = min9 fun k => (x2 (ix3 (0 : Fin 1) r (0 : Fin 1)) + x3 (ix3 (0 : Fin 1) (0 : Fin 1) (lane g k)))
          - Ideal.ofBits .f32 0x40000000#32 * ∑ d : Fin 1024, x0 (ix3 (0 : Fin 1) r d) * x1 (ix3 (0 : Fin 1) (lane g k) d) := by
  rw [pay_eq]
  refine (shapeCast_ab_1ab_apply _ shapeCasts_S512x128_S1x512x128 (0 : Fin 1) r g).trans ?_
  rw [slabMin_apply]
  exact congrArg min9 (funext fun k => distBlock_apply x0 x1 x2 x3 r (lane g k))

end Cert.KernelIdeal.BlockValue

end
-- ==== Proof.KernelValue.lean ====
/-
  The output array after the launch holds the group minima.

  What point `t` writes back at `(0, r, g)` is the least squared distance from row `512 · I + r` of batch `B` to group `g`:
  block `t` of the array of group minima.  The blocks tile the output, so it ends holding the group minima.
-/
import proofs.«102514_j15195594293783_2_alg».proof.Proof.BlockReads
import proofs.«102514_j15195594293783_2_alg».proof.Proof.BlockValue

set_option maxRecDepth 16384

noncomputable section

namespace Cert.KernelIdeal.KernelValue

open Idealize.ShloMosaic Idealize.ShloMosaic.TcCoe Idealize.ShloMosaic.ValueIdx Idealize.SL.Sem
open Cert.KernelIdeal Cert.KernelIdeal.Gen Cert.Distance Cert.KernelIdeal.BlockReads
open Idealize.ShloMosaic.Pipeline (Dat Cfg Window)

variable (m : (ℓ : Loc nD τ sig) → Buf (Elt Ideal) ℓ)

/-- The least squared distance to a group, with the squared distance spelt out. -/
theorem groupMin_spelt (x : (⟨3, ![8, 2048, 1024]⟩ : Shape).Idx → EReal) (y : (⟨3, ![8, 1152, 1024]⟩ : Shape).Idx → EReal)
    (b : Fin 8) (n : Fin 2048) (g : Fin 128) :
    groupMin x y b n g = min9 fun k => (sqNormX x b n + sqNormY y b (member g k))
      - Ideal.ofBits .f32 0x40000000#32 * ∑ d : Fin 1024, x (ix3 b n d) * y (ix3 b (member g k) d) := rfl

/-- What the body stores at `(0, r, g)` at point `t`: the least squared distance from the point's row `r` to group `g`. -/
theorem entry_eq (c : Dev nD) (t : Fin cfg0.N) (r : Fin 512) (g : Fin 128) :
    k0_pay1 (F := Ideal) (iblk m c 0 t) (iblk m c 1 t) (iblk m c 2 t) (iblk m c 3 t) (ix3 (0 : Fin 1) r g)
      = groupMin (m ((c : Thread nD τ).loc main_arg0)) (m ((c : Thread nD τ).loc main_arg1)) (batchOf t) (rowOf t r) g := by
  refine (BlockValue.pay_apply (iblk m c 0 t) (iblk m c 1 t) (iblk m c 2 t) (iblk m c 3 t) r g).trans
    ((congrArg min9 (funext fun k => ?_)).trans (groupMin_spelt _ _ (batchOf t) (rowOf t r) g).symm)
  have h2 : iblk m c 2 t (ix3 (0 : Fin 1) r (0 : Fin 1)) = sqNormX (m ((c : Thread nD τ).loc main_arg0)) (batchOf t) (rowOf t r) :=
    (blkNX m c t r).trans (HostPrefix.normColX_apply _ (batchOf t) (rowOf t r))
  have h3 : iblk m c 3 t (ix3 (0 : Fin 1) (0 : Fin 1) (lane g k)) = sqNormY (m ((c : Thread nD τ).loc main_arg1)) (batchOf t) (member g k) :=
    (blkNY m c t (lane g k)).trans (HostPrefix.normRowY_apply _ (batchOf t) g k)
  exact congrArg₂ (fun a b : EReal => a - b) (congrArg₂ (fun a b : EReal => a + b) h2 h3)
    (congrArg (fun s : EReal => Ideal.ofBits .f32 0x40000000#32 * s) (Finset.sum_congr rfl fun d _ =>
      congrArg₂ (fun a b : EReal => a * b) (blkX m c t r d)
        ((blkY m c t (lane g k) d).trans (HostPrefix.regroupY_apply _ (batchOf t) g k d))))

/-- What point `t` writes back is block `t` of the array of group minima of the two arguments. -/
theorem flushed_eq (c : Dev nD) (t : Fin cfg0.N) :
    (dats m 0 c).flushed 4 t = ((cfg0.win 4).blk t).view.read (Elt Ideal)
      (groupMins (m ((c : Thread nD τ).loc main_arg0)) (m ((c : Thread nD τ).loc main_arg1))) := by
  show (cfg0.win 4).cut (grid0.coords t) ((dats m 0 c).after 4 t) = _
  rw [after0_4]
  unfold out0_4
  rw [View.canon_unit_zero hz]
  simp only [View.ld_unit_zero (S := S1x512x1024) hz, View.ld_unit_zero (S := S1x1152x1024) hz,
    View.ld_unit_zero (S := S1x512x1) hz, View.ld_unit_zero (S := S1x1x1152) hz]
  funext j
  show k0_pay1 (F := Ideal) (iblk m c 0 t) (iblk m c 1 t) (iblk m c 2 t) (iblk m c 3 t) j
    = groupMins (m ((c : Thread nD τ).loc main_arg0)) (m ((c : Thread nD τ).loc main_arg1)) (((cfg0.win 4).blk t).view.emb j)
  have hj : j = (ix3 (0 : Fin 1) (j 1) (j 2) : S1x512x128.Idx) :=
    (eq_ix3 j).trans (congrArg (fun u : Fin 1 => (ix3 u (j 1) (j 2) : S1x512x128.Idx)) (Subsingleton.elim _ _))
  have hE : ((cfg0.win 4).blk t).view.emb j = (ix3 (batchOf t) (rowOf t (j 1)) (j 2) : S8x2048x128.Idx) :=
    (congrArg ((cfg0.win 4).blk t).view.emb hj).trans (embOut t (j 1) (j 2))
  exact (congrArg (k0_pay1 (F := Ideal) (iblk m c 0 t) (iblk m c 1 t) (iblk m c 2 t) (iblk m c 3 t)) hj).trans
    ((entry_eq m c t (j 1) (j 2)).trans (congrArg (groupMins (m ((c : Thread nD τ).loc main_arg0)) (m ((c : Thread nD τ).loc main_arg1))) hE).symm)

/-- The output array after the run holds the group minima. -/
theorem final (c : Dev nD) :
    (dats m 0 c).arrAt 4 cfg0.N
      = groupMins (m ((c : Thread nD τ).loc main_arg0)) (m ((c : Thread nD τ).loc main_arg1)) :=
  (dats m 0 c).arrAt_eq_of_cover 4 _ (fun t _ => flushed_eq m c t) cover

end Cert.KernelIdeal.KernelValue

end
-- ==== Proof.KernelRun.lean ====
/-
  The kernel program's run, with its result named.

  After the launch the program sums the output array from the zero word and divides by the count's word.  The output array
  holds the group minima, so the result is their mean; the two argument arrays end as they began.
-/
import proofs.«102514_j15195594293783_2_alg».proof.Proof.KernelValue

set_option maxRecDepth 16384

noncomputable section

namespace Cert.KernelIdeal.KernelRun

open Idealize.ShloMosaic Idealize.ShloMosaic.TcCoe Idealize.ShloMosaic.ValueIdx Idealize.SL.Sem
open Idealize.ShloMosaic.StableHlo
open Cert.KernelIdeal Cert.KernelIdeal.Gen Cert.Distance

variable (m : (ℓ : Loc nD τ sig) → Buf (Elt Ideal) ℓ) (ρ : Dev nD → PrngReg)

/-- The program's last two lines, as a function of the output array: its sum from the zero word over the count's word. -/
def tailOf (A : FVec Ideal S8x2048x128 .f32) : FVec Ideal S_ .f32 :=
  Host.divf (Host.reduceAdd A (constant S_ .f32 0x00000000#32) reducesTo_S8x2048x128_S_d0_1_2 h_S_)
    (constant S_ .f32 0x4A000000#32)

/-- Read at its one index: the sum over every entry, from the zero word, divided by the count's word. -/
theorem tailOf_apply (A : FVec Ideal S8x2048x128 .f32) (i : S_.Idx) :
    tailOf A i = Ideal.div (Ideal.ofBits .f32 0x00000000#32 + ∑ j : S8x2048x128.Idx, A j) (Ideal.ofBits .f32 0x4A000000#32) := by
  have hsum : Host.reduceAdd A (constant S_ .f32 0x00000000#32) reducesTo_S8x2048x128_S_d0_1_2 h_S_ i
      = Ideal.ofBits .f32 0x00000000#32 + ∑ j : S8x2048x128.Idx, A j := by
    simp only [Host.reduceAdd, Ideal.hostReduceAdd_def]
    exact Ideal.hostReduceAdd_total reducesTo_S8x2048x128_S_d0_1_2 (fun b => b.elim0) A _ i
  show Ideal.div (Host.reduceAdd A (constant S_ .f32 0x00000000#32) reducesTo_S8x2048x128_S_d0_1_2 h_S_ i)
    (Ideal.ofBits .f32 0x4A000000#32) = _
  rw [hsum]

/-- Of the group minima it is their mean. -/
theorem tailOf_groupMins (x : FVec Ideal S8x2048x1024 .f32) (y : FVec Ideal S8x1152x1024 .f32) :
    tailOf (groupMins x y) = fun _ => meanGroupMin x y :=
  funext fun i => tailOf_apply (groupMins x y) i

/-- What the program's result buffer holds after the lines that follow the launch. -/
theorem tail_eq (c : Dev nD) :
    Pipeline.afterTail₀ cfgs (dats m) 0 (V0 m) [hostOps1] c main_v16
      = tailOf (groupMins (m ((c : Thread nD τ).loc main_arg0)) (m ((c : Thread nD τ).loc main_arg1))) := by
  have hA : Pipeline.withArrays spec0 c (V0 m c) (fun w => (dats m 0 c).arrAt w cfg0.N) (Proc.devRef .tc main_v14)
      = groupMins (m ((c : Thread nD τ).loc main_arg0)) (m ((c : Thread nD τ).loc main_arg1)) :=
    (Pipeline.withArrays_arr spec0 launch0.win.arr_inj c _ _ 4).trans (KernelValue.final m c)
  unfold Pipeline.afterTail₀
  show StableHlo.after hostOps1 _ (Proc.devRef .tc main_v16) = _
  after_results
  exact congrArg tailOf hA

/-- Every weakly fair execution ends with the result at the mean of the group minima of the arguments, which are unchanged. -/
theorem run : θ_run defs (onTc (τ := τ) (main (F := Ideal))) ⟨m, fun _ => 0, ρ⟩ fun r => ∀ c : Dev nD,
      r.2.mem ((c.tc : Thread nD τ).loc main_v16)
        = (fun _ => meanGroupMin (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v16 (Pipeline.mem_restRefs_of main_v16 (by decide) (by decide))).trans
        ((tail_eq m c).trans (tailOf_groupMins _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelRun

end
-- ==== Proof.ReferenceValue.lean ====
/-
  The reference's result is the mean of the group minima.

  The reference forms the whole `[8, 2048, 1152]` array of squared distances, views it as `[8, 262144, 9]` — flat position
  `128 · n + g` holds the nine distances from row `n` to the rows `9 · g + k` of group `g` —, takes the minimum over the last
  axis from `+∞`, sums all `8 · 262144` minima from the zero word and divides by the count's word.
-/
import proofs.«102514_j15195594293783_2_alg».proof.Proof.Gen.ReferenceIdeal.Read
import proofs.«102514_j15195594293783_2_alg».proof.Proof.Distance
import Idealize.ShloMosaic.PureOps.Ideal.Laws
import Idealize.ShloMosaic.PureOps.Reduce
import Idealize.ShloMosaic.Lib.ValueIdx

noncomputable section

namespace Cert.ReferenceIdeal.RefValue

open Idealize.ShloMosaic Idealize.ShloMosaic.ValueIdx Cert.ReferenceIdeal Cert.ReferenceIdeal.Gen Cert.ReferenceIdeal.Read
  Cert.Distance

/-- The word the minimum starts from denotes `+∞`, the top of the extended reals. -/
theorem ofBits_inf : Ideal.ofBits .f32 0x7F800000#32 = (⊤ : EReal) := by simp [Ideal.ofBits, Ideal.ieee]

variable (x0 : FVec Ideal S8x2048x1024 .f32) (x1 : FVec Ideal S8x1152x1024 .f32)

/-- Entry `(b, n, q)` of the reference's distance array is the squared distance from row `n` to row `q`. -/
theorem dist_apply (b : Fin 8) (n : Fin 2048) (q : Fin 1152) :
    val_main_v12 (F := Ideal) x0 x1 (ix3 b n q) = sqDist x0 x1 b n q := by
  have i1 : ∀ d : Fin 1024, idx_main_v1 (idx_main_v2 (idx_main_v7 (ix3 b n q))) d = ix3 b n d := fun d =>
    funext fun a => Fin.ext (by match a with | ⟨0, _⟩ => rfl | ⟨1, _⟩ => rfl | ⟨2, _⟩ => rfl)
  have i4 : ∀ d : Fin 1024, idx_main_v4 (idx_main_v5 (idx_main_v8 (ix3 b n q))) d = ix3 b q d := fun d =>
    funext fun a => Fin.ext (by match a with | ⟨0, _⟩ => rfl | ⟨1, _⟩ => rfl | ⟨2, _⟩ => rfl)
  have il : ∀ d : Fin 1024, lidx_main_v6 (ix3 b n q) d = ix3 b n d := fun d =>
    funext fun a => Fin.ext (by match a with | ⟨0, _⟩ => rfl | ⟨1, _⟩ => rfl | ⟨2, _⟩ => rfl)
  have ir : ∀ d : Fin 1024, ridx_main_v6 (ix3 b n q) d = ix3 b q d := fun d =>
    funext fun a => Fin.ext (by match a with | ⟨0, _⟩ => rfl | ⟨1, _⟩ => rfl | ⟨2, _⟩ => rfl)
  rw [val_main_v12_apply, val_main_v9_apply, val_main_v7_apply, val_main_v2_apply, val_main_v1_apply, val_main_v8_apply,
    val_main_v5_apply, val_main_v4_apply, val_main_v11_apply, val_main_v10_apply, val_main_v6_apply]
  unfold sqDist sqNormX sqNormY Cert.Distance.inner
  simp only [i1, i4, il, ir, val_main_v0_apply, val_main_v3_apply, val_main_cst_apply, val_main_cst_0_apply,
    val_main_cst_1_apply, Ideal.mulf_def, Ideal.addf_def, Ideal.subf_def, Ideal.ofBits_def]

/-- The `[8, 262144, 9]` view of the distance array: position `(b, 128 · n + g, k)` holds entry `(b, n, 9 · g + k)`, the two
    having the same row-major position. -/
theorem reshape_apply (b : Fin 8) (n : Fin 2048) (g : Fin 128) (k : Fin 9) :
    val_main_v13 (F := Ideal) x0 x1 (ix3 b (flat n g) k : S8x262144x9.Idx)
      = val_main_v12 (F := Ideal) x0 x1 (ix3 b n (member g k) : S8x2048x1152.Idx) := by
  have hb := b.isLt; have hn := n.isLt; have hg := g.isLt; have hk : k.val < 9 := k.isLt
  unfold val_main_v13
  refine shapeCast_apply _ shapeCasts_S8x2048x1152_S8x262144x9 _ _ ?_
  rw [Shape.rowMajor_val_three, Shape.rowMajor_val_three]
  show (b.val * 2048 + n.val) * 1152 + (9 * g.val + k.val) = (b.val * 262144 + (128 * n.val + g.val)) * 9 + k.val
  omega

/-- The index the minimum over the last axis reads at its `k`-th step. -/
theorem lift_eq (hR : S8x262144x9.Reduces [2] S8x262144) (b : Fin 8) (n : Fin 2048) (g : Fin 128) (k : Fin 9) :
    hR.lift (ix2 b (flat n g)) k = (ix3 b (flat n g) k : S8x262144x9.Idx) :=
  funext fun a => Fin.ext (by match a with | ⟨0, _⟩ => rfl | ⟨1, _⟩ => rfl | ⟨2, _⟩ => rfl)

/-- The `k`-th value the minimum at `(b, 128 · n + g)` runs over: the squared distance from row `n` to member `k` of group `g`. -/
theorem fiber_at (hR : S8x262144x9.Reduces [2] S8x262144) (b : Fin 8) (n : Fin 2048) (g : Fin 128) (k : Fin 9) :
    val_main_v13 (F := Ideal) x0 x1 (hR.lift (ix2 b (flat n g)) k) = sqDist x0 x1 b n (member g k) :=
  (congrArg (val_main_v13 (F := Ideal) x0 x1) (lift_eq hR b n g k)).trans
    ((reshape_apply x0 x1 b n g k).trans (dist_apply x0 x1 b n (member g k)))

theorem reduces_last : S8x262144x9.Reduces [2] S8x262144 := by decide

/-- Entry `(b, 128 · n + g)` of the reference's array of minima — the minimum over the last axis, from `+∞` — is the least
    squared distance from row `n` to group `g`. -/
theorem groupMin_apply (b : Fin 8) (n : Fin 2048) (g : Fin 128) :
    val_main_v14 (F := Ideal) x0 x1 (ix2 b (flat n g)) = groupMin x0 x1 b n g := by
  unfold val_main_v14
  refine (Host.reduce_eq_fold_single (FloatOps.minimumf (F := Ideal) (φ := .f32)) (val_main_v13 (F := Ideal) x0 x1)
    (val_main_cst_2 (F := Ideal)) reducesTo_S8x262144x9_S8x262144_d2 reduces_last h_S_ (ix2 b (flat n g))).trans ?_
  refine (Finset.fold_congr (g := fun k => sqDist x0 x1 b n (member g k)) fun k _ => ?_).trans ?_
  · exact (Function.comp_apply (f := val_main_v13 (F := Ideal) x0 x1) (g := reduces_last.lift (ix2 b (flat n g)))
      (x := k)).trans (fiber_at x0 x1 reduces_last b n g k)
  · show Finset.fold min (Ideal.ofBits .f32 0x7F800000#32) (fun k : Fin 9 => sqDist x0 x1 b n (member g k)) Finset.univ = _
    rw [ofBits_inf]
    exact fold_min_nine _

/-- The reference's result: the mean of the group minima. -/
theorem result_eq (i : S_.Idx) : val_main_v16 (F := Ideal) x0 x1 i = meanGroupMin x0 x1 := by
  have hs : ∑ j : S8x262144.Idx, val_main_v14 (F := Ideal) x0 x1 j
      = ∑ i : (⟨3, ![8, 2048, 128]⟩ : Shape).Idx, groupMins x0 x1 i :=
    (sum_flat _).trans (Finset.sum_congr rfl fun i _ => groupMin_apply x0 x1 (i 0) (i 1) (i 2))
  rw [val_main_v16_apply, val_main_v15_apply, hs]
  rfl

end Cert.ReferenceIdeal.RefValue

end
-- ==== Proof.lean ====
/-
  The kernel and its reference compute one number: the mean, over every row `n` of `x : [8, 2048, 1024]` and every group
  `g` of nine consecutive rows of `y : [8, 1152, 1024]` in the same batch, of the least squared distance
  `(‖xₙ‖² + ‖yₘ‖²) − 2 · ⟨xₙ, yₘ⟩` from the row to the group's nine rows.

  The kernel regroups the rows of `y` so that member `k` of every group sits in slab `k` of 128 consecutive rows, forms one
  `[512, 1152]` block of distances per grid point and takes the minimum over the nine slabs; the reference forms all
  distances, views the last axis as 128 groups of nine and takes the minimum over each group.  Both then sum the `2²¹` minima
  from the zero word and divide by the same count.  On the extended reals the two are the same term index by index — the
  regrouping is a permutation of positions, the nine-fold nested minimum is the minimum folded from `+∞`, and the two sums run
  over index sets matched by their row-major positions — so nothing is asked of the inputs beyond what the frames ask.
-/
import proofs.«102514_j15195594293783_2_alg».proof.Defs
import proofs.«102514_j15195594293783_2_alg».proof.Proof.Gen.Kernel
import proofs.«102514_j15195594293783_2_alg».proof.Proof.Gen.Kernel.Skeleton
import proofs.«102514_j15195594293783_2_alg».proof.Proof.Gen.Kernel.Launch
import proofs.«102514_j15195594293783_2_alg».proof.Proof.Gen.Kernel.Points
import proofs.«102514_j15195594293783_2_alg».proof.Proof.Gen.Kernel.Frame
import proofs.«102514_j15195594293783_2_alg».proof.Proof.Gen.KernelIdeal
import proofs.«102514_j15195594293783_2_alg».proof.Proof.Gen.KernelIdeal.Skeleton
import proofs.«102514_j15195594293783_2_alg».proof.Proof.Gen.KernelIdeal.Launch
import proofs.«102514_j15195594293783_2_alg».proof.Proof.Gen.KernelIdeal.Points
import proofs.«102514_j15195594293783_2_alg».proof.Proof.Gen.KernelIdeal.Frame
import proofs.«102514_j15195594293783_2_alg».proof.Proof.Gen.ReferenceIdeal
import proofs.«102514_j15195594293783_2_alg».proof.Proof.Gen.ReferenceIdeal.Run
import proofs.«102514_j15195594293783_2_alg».proof.Proof.Gen.ReferenceIdeal.Read
import proofs.«102514_j15195594293783_2_alg».proof.Proof.Gen.Pre_finite_inputs
import proofs.«102514_j15195594293783_2_alg».proof.Proof.KernelRun
import proofs.«102514_j15195594293783_2_alg».proof.Proof.ReferenceValue
import Idealize.ShloMosaic.Adequacy
import Idealize.ShloMosaic.Init

noncomputable section

namespace Cert.Proof

open Idealize.ShloMosaic Idealize.ShloMosaic.TcCoe Idealize.SL.Sem Cert.Distance

/-- From memories that agree on the two arguments both programs end with the mean of the group minima of those arguments
    in their result, and with the arguments unchanged. -/
theorem algebraic : Cert.algebraic_KernelIdeal_ReferenceIdeal := by
  intro m ρ m' ρ' _ hagree
  refine ⟨fun c _ => meanGroupMin
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v16_eq (F := Ideal) _ _).trans ?_
  rw [(hagree c).1, (hagree c).2]
  exact funext fun i => Cert.ReferenceIdeal.RefValue.result_eq _ _ i

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  algebraic⟩

end Cert.Proof

end
